-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S6144x4096 : Shape := ⟨2, ![6144, 4096]⟩
abbrev S48x32 : Shape := ⟨2, ![48, 32]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S6144x4096 : S_.BroadcastsInDim S6144x4096 (![] : Fin 0 → Fin S6144x4096.rank)
  reducesTo_S6144x4096_S_d0_1 : S6144x4096.ReducesTo [0, 1] S_
  bcast_S_S48x32 : S_.BroadcastsInDim S48x32 (![] : Fin 0 → Fin S48x32.rank)
  reducesTo_S48x32_S_d0_1 : S48x32.ReducesTo [0, 1] S_

variable [Facts]

def fn {F : FTy → Type} [FloatOps F] (main_arg0 : FVec F S16384x4096 .f32) (main_arg1 : FVec F S6144x4096 .f32) (main_arg2 : FVec F S48x32 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S6144x4096 .f32 := Host.absf main_arg1
  let main_cst_0 : FVec F S_ .f32 := constant S_ .f32 0x7F800000#32
  let main_v5 : FVec F S6144x4096 .f32 := broadcastInDim S6144x4096 ![] bcast_S_S6144x4096 main_cst_0
  let main_v6 : IVec S6144x4096 1 := cmpf .olt main_v4 main_v5
  let main_c_1 : IVec S_ 1 := constantI S_ 1 1#1
  let main_v7 : IVec S_ 1 := (fun x v => Host.reduce IntOp.andi x v reducesTo_S6144x4096_S_d0_1 h_S_) main_v6 main_c_1
  let main_v8 : IVec S_ 1 := andi main_v3 main_v7
  let main_v9 : FVec F S48x32 .f32 := Host.absf main_arg2
  let main_cst_2 : FVec F S_ .f32 := constant S_ .f32 0x7F800000#32
  let main_v10 : FVec F S48x32 .f32 := broadcastInDim S48x32 ![] bcast_S_S48x32 main_cst_2
  let main_v11 : IVec S48x32 1 := cmpf .olt main_v9 main_v10
  let main_c_3 : IVec S_ 1 := constantI S_ 1 1#1
  let main_v12 : IVec S_ 1 := (fun x v => Host.reduce IntOp.andi x v reducesTo_S48x32_S_d0_1 h_S_) main_v11 main_c_3
  let main_v13 : IVec S_ 1 := andi main_v8 main_v12
  main_v13
-- ==== Kernel.lean ====
abbrev S16384x4096 : Shape := ⟨2, ![16384, 4096]⟩
abbrev S6144x4096 : Shape := ⟨2, ![6144, 4096]⟩
abbrev S48x32 : Shape := ⟨2, ![48, 32]⟩
abbrev S48x128x32x128 : Shape := ⟨4, ![48, 128, 32, 128]⟩
abbrev S48x1x32x1 : Shape := ⟨4, ![48, 1, 32, 1]⟩
abbrev S16384x6144 : Shape := ⟨2, ![16384, 6144]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S6144x4096, .f32⟩
  | .hbm, ⟨2, _⟩ => ⟨S48x32, .f32⟩
  | .hbm, ⟨3, _⟩ => ⟨S48x128x32x128, .f32⟩
  | .hbm, ⟨4, _⟩ => ⟨S48x1x32x1, .f32⟩
  | .hbm, ⟨5, _⟩ => ⟨S48x128x32x128, .f32⟩
  | .hbm, ⟨6, _⟩ => ⟨S48x128x32x128, .f32⟩
  | .hbm, ⟨7, _⟩ => ⟨S6144x4096, .f32⟩
  | .hbm, ⟨8, _⟩ => ⟨S6144x4096, .bf16⟩
  | .hbm, ⟨9, _⟩ => ⟨S16384x4096, .bf16⟩
  | .hbm, ⟨10, _⟩ => ⟨S16384x6144, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S6144x4096_S48x128x32x128 : S6144x4096.ShapeCasts S48x128x32x128
  bcast_S48x32_S48x1x32x1_0_2 : S48x32.BroadcastsInDim S48x1x32x1 (![0, 2] : Fin 2 → Fin S48x1x32x1.rank)
  bcast_S48x1x32x1_S48x128x32x128_0_1_2_3 : S48x1x32x1.BroadcastsInDim S48x128x32x128 (![0, 1, 2, 3] : Fin 4 → Fin S48x128x32x128.rank)
  shapeCasts_S48x128x32x128_S6144x4096 : S48x128x32x128.ShapeCasts S6144x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S6144x4096.size a
  hwx0_1 : ∀ i : grid0.Coords, EltTy.bits .bf16 = 32 ∨ (Rect.block (s := S6144x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x6144.size a
  hwx0_2 : ∀ i : grid0.Coords, EltTy.bits .f32 = 32 ∨ (Rect.block (s := S16384x6144) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v6) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S6144x4096 : Shape := ⟨2, ![6144, 4096]⟩
abbrev S48x32 : Shape := ⟨2, ![48, 32]⟩
abbrev S48x128x32x128 : Shape := ⟨4, ![48, 128, 32, 128]⟩
abbrev S48x1x32x1 : Shape := ⟨4, ![48, 1, 32, 1]⟩
abbrev S16384x6144 : Shape := ⟨2, ![16384, 6144]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S6144x4096, .f32⟩
  | .hbm, ⟨2, _⟩ => ⟨S48x32, .f32⟩
  | .hbm, ⟨3, _⟩ => ⟨S48x128x32x128, .f32⟩
  | .hbm, ⟨4, _⟩ => ⟨S48x1x32x1, .f32⟩
  | .hbm, ⟨5, _⟩ => ⟨S48x128x32x128, .f32⟩
  | .hbm, ⟨6, _⟩ => ⟨S48x128x32x128, .f32⟩
  | .hbm, ⟨7, _⟩ => ⟨S6144x4096, .f32⟩
  | .hbm, ⟨8, _⟩ => ⟨S16384x6144, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S6144x4096_S48x128x32x128 : S6144x4096.ShapeCasts S48x128x32x128
  bcast_S48x32_S48x1x32x1_0_2 : S48x32.BroadcastsInDim S48x1x32x1 (![0, 2] : Fin 2 → Fin S48x1x32x1.rank)
  bcast_S48x1x32x1_S48x128x32x128_0_1_2_3 : S48x1x32x1.BroadcastsInDim S48x128x32x128 (![0, 1, 2, 3] : Fin 4 → Fin S48x128x32x128.rank)
  shapeCasts_S48x128x32x128_S6144x4096 : S48x128x32x128.ShapeCasts S6144x4096
  dot_S16384x4096_S6144x4096_S16384x6144_1_1_0_0_n_n_wf : DotDims.WF S16384x4096 S6144x4096 S16384x6144 [1] [1] [0] [0] [] []

variable [Facts₀]

def dot_S16384x4096_S6144x4096_S16384x6144_1_1_0_0_n_n : DotDims S16384x4096 S6144x4096 S16384x6144 where
  lhsContracting := [1]
  rhsContracting := [1]
  lhsNonContracting := [0]
  rhsNonContracting := [0]
  lhsBatch := []
  rhsBatch := []
  wf := dot_S16384x4096_S6144x4096_S16384x6144_1_1_0_0_n_n_wf

class Facts : Prop extends Facts₀ where

variable [Facts]
-- ==== Proof.CaseValues.lean ====
/-
  What one grid point leaves behind, as values.

  The body keeps a [2048, 1024] accumulator between grid points.  Writing `step acc x w` for the accumulator
  `acc` plus the product of the point's [2048, 512] block `x` with the transpose of its [1024, 512] block `w`
  (the generated payload `k0_pay2`), and `zero` for the block of zeros the first inner step stores
  (`k0_pay1`), the three cases of the body's two conditionals leave:

    first inner step        accumulator := step zero x w          (output block untouched)
    middle inner steps      accumulator := step acc x w           (output block untouched)
    last inner step         accumulator := step acc x w, and the output block := the same value

  Each is the canonical form of the case's one covering store (two for the first step: the zeros, then the
  sum over them), with every load read back as the whole buffer it covers.  Stated for any float instance.
-/
import proofs.«133586_j927712936107_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem
open Idealize.ShloMosaic.Pipeline (Dat)

variable {F : FTy → Type} [FloatOps F]

/-- Every load and store of the body starts at the origin of its buffer. -/
theorem hz : (![0, 0] : Fin 2 → Nat) = fun _ => 0 := funext fun a => by fin_cases a <;> rfl

/-- A middle inner step leaves `step acc x w` in the accumulator. -/
theorem scratch_B (c : Dev nD) (i : grid0.Coords) (a3 : Memref sig .tc .vmem S2048x512 .bf16) (h3 : a3.IsWhole) (a4 : Memref sig .tc .vmem S1024x512 .bf16) (h4 : a4.IsWhole) (a5 : Memref sig .tc .vmem S2048x1024 .f32) (h5 : a5.IsWhole) (a6 : Memref sig .tc .vmem S2048x1024 .f32) (h6 : a6.IsWhole) (hc0 : ¬cond0_0 i) (hc1 : ¬cond0_1 i)
    (x0 : Vec F S2048x512 .bf16) (x1 : Vec F S1024x512 .bf16) (xs0 : Vec F S2048x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S2048x1024) hz,
    View.ld_unit_zero (S := S2048x512) hz, View.ld_unit_zero (S := S1024x512) hz]

/-- The first inner step stores zeros, reads them back, and leaves `step zero x w` in the accumulator. -/
theorem scratch_A (c : Dev nD) (i : grid0.Coords) (a3 : Memref sig .tc .vmem S2048x512 .bf16) (h3 : a3.IsWhole) (a4 : Memref sig .tc .vmem S1024x512 .bf16) (h4 : a4.IsWhole) (a5 : Memref sig .tc .vmem S2048x1024 .f32) (h5 : a5.IsWhole) (a6 : Memref sig .tc .vmem S2048x1024 .f32) (h6 : a6.IsWhole) (hc0 : cond0_0 i) (hc1 : ¬cond0_1 i)
    (x0 : Vec F S2048x512 .bf16) (x1 : Vec F S1024x512 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x1024) hz,
    View.ld_unit_zero (S := S2048x512) hz, View.ld_unit_zero (S := S1024x512) hz]

/-- The last inner step leaves `step acc x w` in the accumulator, -/
theorem scratch_C (c : Dev nD) (i : grid0.Coords) (a3 : Memref sig .tc .vmem S2048x512 .bf16) (h3 : a3.IsWhole) (a4 : Memref sig .tc .vmem S1024x512 .bf16) (h4 : a4.IsWhole) (a5 : Memref sig .tc .vmem S2048x1024 .f32) (h5 : a5.IsWhole) (a6 : Memref sig .tc .vmem S2048x1024 .f32) (h6 : a6.IsWhole) (hc0 : ¬cond0_0 i) (hc1 : cond0_1 i)
    (x0 : Vec F S2048x512 .bf16) (x1 : Vec F S1024x512 .bf16) (xs0 : Vec F S2048x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x512) hz, View.ld_unit_zero (S := S1024x512) hz]

/-- and copies that value, read back from the accumulator, into the output block. -/
theorem out_C (c : Dev nD) (i : grid0.Coords) (a3 : Memref sig .tc .vmem S2048x512 .bf16) (h3 : a3.IsWhole) (a4 : Memref sig .tc .vmem S1024x512 .bf16) (h4 : a4.IsWhole) (a5 : Memref sig .tc .vmem S2048x1024 .f32) (h5 : a5.IsWhole) (a6 : Memref sig .tc .vmem S2048x1024 .f32) (h6 : a6.IsWhole) (hc0 : ¬cond0_0 i) (hc1 : cond0_1 i)
    (x0 : Vec F S2048x512 .bf16) (x1 : Vec F S1024x512 .bf16) (xs0 : Vec F S2048x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x1024) hz,
    View.ld_unit_zero (S := S2048x512) hz, View.ld_unit_zero (S := S1024x512) hz]

end Cert.KernelIdeal.CaseValues

end
-- ==== Proof.StepAtIndex.lean ====
/-
  One accumulation step read at an entry.

  On the extended reals the step `acc + x · wᵀ` of a [2048, 512] block `x` and a [1024, 512] block `w` into a
  [2048, 1024] accumulator is, at entry (r, o), `acc[r, o] + Σ_q x[r, q] * w[o, q]` over the 512 inner
  coordinates `q`: the matrix unit's product into a zero accumulator is the plain sum over the one contracted
  axis, the left operand read at (row of the output, q) and the right at (column of the output, q).  The block
  of zeros the first step starts from is zero at every entry.
-/
import proofs.«133586_j927712936107_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

namespace Cert.KernelIdeal.StepAtIndex

open Cert.KernelIdeal Cert.KernelIdeal.Gen Idealize.ShloMosaic Idealize.ShloMosaic.TcCoe Idealize.SL.Sem
open Idealize.ShloMosaic.Pipeline (Dat)

variable {F : FTy → Type} [FloatOps F]

open Idealize.ShloMosaic.ValueIdx

/-- The left operand's index for output entry `i` and contraction index `q`: row `i 0`, -/
theorem lhs_0 (i : S2048x1024.Idx) (q : dot_S2048x512_S1024x512_S2048x1024_1_1_0_0_n_n.contr.Idx) : (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
/-- column `q`. -/
theorem lhs_1 (i : S2048x1024.Idx) (q : dot_S2048x512_S1024x512_S2048x1024_1_1_0_0_n_n.contr.Idx) : (dot_S2048x512_S1024x512_S2048x1024_1_1_0_0_n_n.lhsIdx i q 1).val = (q ⟨0, by decide⟩).val :=
  dot_S2048x512_S1024x512_S2048x1024_1_1_0_0_n_n.lhsIdx_val_of_single rfl i q
/-- The right operand's: row `i 1` (the product is with the transpose), -/
theorem rhs_0 (i : S2048x1024.Idx) (q : dot_S2048x512_S1024x512_S2048x1024_1_1_0_0_n_n.contr.Idx) : (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
/-- column `q`. -/
theorem rhs_1 (i : S2048x1024.Idx) (q : dot_S2048x512_S1024x512_S2048x1024_1_1_0_0_n_n.contr.Idx) : (dot_S2048x512_S1024x512_S2048x1024_1_1_0_0_n_n.rhsIdx i q 1).val = (q ⟨0, by decide⟩).val :=
  dot_S2048x512_S1024x512_S2048x1024_1_1_0_0_n_n.rhsIdx_val_of_single rfl i q

/-- Entry `j` of the product of a [2048, 512] block with the transpose of a [1024, 512] block. -/
def blockDot (x0 : Vec Ideal S2048x512 .bf16) (x1 : Vec Ideal S1024x512 .bf16) (j : S2048x1024.Idx) : EReal :=
  ∑ q : Fin 512, x0 (ix2 (j 0) q) * x1 (ix2 (j 1) q)

/-- The step at entry (r, o). -/
theorem step_ix (acc : Vec Ideal S2048x1024 .f32) (x0 : Vec Ideal S2048x512 .bf16) (x1 : Vec Ideal S1024x512 .bf16)
    (r : Fin 2048) (o : Fin 1024) :
    k0_pay2 (F := Ideal) acc x0 x1 (ix2 r o) = acc (ix2 r o) + ∑ q : Fin 512, x0 (ix2 r q) * x1 (ix2 o q) := by
  unfold k0_pay2
  simp only [shapeCast_self]
  rw [addf_apply]
  refine congrArg (acc (ix2 r o) + ·) ?_
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r o) ((contrEquiv1 dot_S2048x512_S1024x512_S2048x1024_1_1_0_0_n_n 512 rfl rfl).symm k) = ix2 r k := funext fun a => Fin.ext (by
    match a with
    | ⟨0, _⟩ => exact lhs_0 _ _
    | ⟨1, _⟩ => exact (lhs_1 _ _).trans hk)
  have er : dot_S2048x512_S1024x512_S2048x1024_1_1_0_0_n_n.rhsIdx (ix2 r o) ((contrEquiv1 dot_S2048x512_S1024x512_S2048x1024_1_1_0_0_n_n 512 rfl rfl).symm k) = ix2 o k := funext fun a => Fin.ext (by
    match a with
    | ⟨0, _⟩ => exact rhs_0 _ _
    | ⟨1, _⟩ => exact (rhs_1 _ _).trans hk)
  rw [el, er]

/-- The step at any entry `j`, by its two coordinates. -/
theorem step_apply (acc : Vec Ideal S2048x1024 .f32) (x0 : Vec Ideal S2048x512 .bf16) (x1 : Vec Ideal S1024x512 .bf16)
    (j : S2048x1024.Idx) :
    k0_pay2 (F := Ideal) acc x0 x1 j = acc j + blockDot x0 x1 j := by
  obtain ⟨r, o, rfl⟩ : ∃ (r : Fin 2048) (o : Fin 1024), j = ix2 r o := ⟨j 0, j 1, eq_ix2 j⟩
  exact step_ix acc x0 x1 r o

/-- The block the first step stores is zero everywhere. -/
theorem zero_block_apply (j : S2048x1024.Idx) : k0_pay1 (F := Ideal) j = 0 := by
  unfold k0_pay1
  simp only [shapeCast_self]
  show Ideal.ofBits .f32 0x00000000#32 = 0
  exact Ideal.ofBits_zero_f32

end Cert.KernelIdeal.StepAtIndex

end
-- ==== Proof.Accumulated.lean ====
/-
  The accumulator after a run of inner steps.

  Grid point `n` adds to every entry (r, o) of the accumulator the partial product
  `Σ_q x_n[r, q] * w_n[o, q]` of the two blocks it was handed (its addend); the first point of each run of eight
  (the points divisible by 8) starts from zero instead of from what the point before left.  Hence after point
  `t` the accumulator holds, at every entry, zero plus the addends of the points from the start of `t`'s run up
  to `t` — the fold of eight steps opened once, by the library's law for folds whose every step adds a term, and
  never point by point.  At the last point of a run the output block receives the same value.
-/
import proofs.«133586_j927712936107_1_alg».proof.Proof.Gen.KernelIdeal.Value
import proofs.«133586_j927712936107_1_alg».proof.Proof.CaseValues
import proofs.«133586_j927712936107_1_alg».proof.Proof.StepAtIndex
import Idealize.ShloMosaic.Lib.Pipeline.Value
import Idealize.ShloMosaic.Lib.Tactic
import Idealize.ShloMosaic.Lib.ValueIdx

noncomputable section

namespace Cert.KernelIdeal.Accumulated

open Cert.KernelIdeal Cert.KernelIdeal.Gen Idealize.ShloMosaic Idealize.ShloMosaic.TcCoe Idealize.SL.Sem
open Idealize.ShloMosaic.Pipeline (Dat)

variable {F : FTy → Type} [FloatOps F]

open Idealize.ShloMosaic.ValueIdx Cert.KernelIdeal.CaseValues Cert.KernelIdeal.StepAtIndex

variable (m : (ℓ : Loc nD τ sig) → Buf (Elt Ideal) ℓ)

/-- What grid point `n` adds to entry `y` of the accumulator: the product of its two blocks at that entry (nothing
    for an `n` past the grid). -/
def addend (c : Dev nD) (n : ℕ) (y : S2048x1024.Idx) : EReal :=
  if hb : n < cfg0.N then blockDot (iblk m c 0 ⟨n, hb⟩) (iblk m c 1 ⟨n, hb⟩) y else 0

theorem addend_of_lt (c : Dev nD) (n : ℕ) (hb : n < cfg0.N) (y : S2048x1024.Idx) :
    addend m c n y = blockDot (iblk m c 0 ⟨n, hb⟩) (iblk m c 1 ⟨n, hb⟩) y := by
  unfold addend; rw [dif_pos hb]

/-- The first point of a run leaves zero plus its addend, whatever the accumulator held. -/
theorem reset_apply (c : Dev nD) (n : ℕ) (hb : n < cfg0.N) (h0 : n % 8 = 0) (acc : Vec Ideal S2048x1024 .f32) (y : S2048x1024.Idx) :
    Value.scAt0_0 m c n hb acc y = 0 + addend m c n y := by
  have h1 : ¬n % 8 = 7 := by omega
  unfold Value.scAt0_0
  rw [dif_pos h0, dif_neg h1]
  refine (congrFun (scratch_A (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩)) y).trans ?_
  refine (step_apply _ _ _ y).trans ?_
  rw [zero_block_apply, addend_of_lt m c n hb y]

/-- Every other point leaves what the accumulator held plus its addend. -/
theorem step_point_apply (c : Dev nD) (n : ℕ) (hb : n < cfg0.N) (h0 : ¬n % 8 = 0) (acc : Vec Ideal S2048x1024 .f32) (y : S2048x1024.Idx) :
    Value.scAt0_0 m c n hb acc y = acc y + addend m c n y := by
  unfold Value.scAt0_0
  rw [dif_neg h0]
  by_cases h1 : n % 8 = 7
  · rw [dif_pos h1]
    refine (congrFun (scratch_C (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) acc) y).trans ?_
    refine (step_apply _ _ _ y).trans ?_
    rw [addend_of_lt m c n hb y]
  · rw [dif_neg h1]
    refine (congrFun (scratch_B (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) acc) y).trans ?_
    refine (step_apply _ _ _ y).trans ?_
    rw [addend_of_lt m c n hb y]

/-- After point `t` the accumulator holds zero plus the addends of its run's points up to `t`. -/
theorem scratch_after (c : Dev nD) (t : Fin cfg0.N) (y : S2048x1024.Idx) :
    (outsAt0 m c t.val t.isLt).2 y = 0 + ∑ s ∈ Finset.range (t.val % 8 + 1), addend m c (8 * (t.val / 8) + s) y := by
  rw [Value.soutsAt0_0_eq m c t]
  exact Pipeline.accAt_add_apply (fun n h => Value.scAt0_0 m c n h (VS0_0.read (Elt Ideal) VS0_0.junk)) (Value.scAt0_0 m c)
    (fun _ => 0) (addend m c) (8 * (t.val / 8)) 7
    (fun h i => reset_apply m c _ h (by omega) _ i)
    (fun n h acc i hlt hle => step_point_apply m c n h (by omega) acc i)
    (t.val % 8) (by omega) _ y

/-- At the last point of a run the output block is given the accumulator's new value. -/
theorem out_eq_scratch (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) _).trans
    (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) _).symm

end Cert.KernelIdeal.Accumulated

end
-- ==== Proof.BlockReads.lean ====
/-
  The blocks the kernel reads, as entries of the arguments.

  The grid has 8 row blocks of 2048 tokens, 6 column blocks of 1024 outputs and 8 inner steps of 512 features.
  At a grid point the kernel is handed the [2048, 512] block of the (format-converted) first argument at
  (row block, inner step) and the [1024, 512] block of the dequantized, format-converted weight at
  (column block, inner step).  On the extended reals a change of float format is the identity, so these are
  blocks of the first argument itself and of the dequantized weight: the weight regrouped into 128 × 128
  blocks, each multiplied by its entry of the [48, 32] table, and flattened back.
-/
import proofs.«133586_j927712936107_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import Idealize.ShloMosaic.PureOps.Ideal.Laws

noncomputable section

namespace Cert.KernelIdeal.BlockReads

open Cert.KernelIdeal Cert.KernelIdeal.Gen Idealize.ShloMosaic Idealize.ShloMosaic.TcCoe Idealize.SL.Sem
open Idealize.ShloMosaic.Pipeline (Dat)

variable {F : FTy → Type} [FloatOps F]

open Idealize.ShloMosaic.ValueIdx

variable (m : (ℓ : Loc nD τ sig) → Buf (Elt Ideal) ℓ)

/-- Grid point `t` of the 8 × 6 × 8 grid, counted with the inner coordinate fastest, is row block `t / 48`, column
    block `t / 8 % 6` and inner step `t % 8`: the left operand's block index there is (row block, inner step), the
    right operand's (column block, inner step), the output's (row block, column block).  Decided over the 384 points. -/
theorem idx_facts : ∀ t : Fin cfg0.N,
    win0_0.index t (0 : Fin 2) = t.val / 48 ∧ win0_0.index t (1 : Fin 2) = t.val % 8
    ∧ win0_1.index t (0 : Fin 2) = t.val / 8 % 6 ∧ win0_1.index t (1 : Fin 2) = t.val % 8
    ∧ win0_2.index t (0 : Fin 2) = t.val / 48 ∧ win0_2.index t (1 : Fin 2) = t.val / 8 % 6 :=
  (by decide +kernel : ∀ t : Fin grid0.N, _)

/-- The left operand's array as the kernel finds it is the first argument: rounding to a narrower format changes no
    extended real. -/
theorem V_x (c : Dev nD) : (V m c main_v6 : S16384x4096.Idx → EReal) = m ((c : Thread nD τ).loc main_arg0) := by
  dsimp only [Gen.V, Gen.hostOps0]; after_results; rfl

/-- The weight with each 128 × 128 block multiplied by its entry of the [48, 32] table. -/
def dequant (w : FVec Ideal S6144x4096 .f32) (s : FVec Ideal S48x32 .f32) : FVec Ideal S6144x4096 .f32 :=
  shapeCast S6144x4096 (mulf (shapeCast S48x128x32x128 w shapeCasts_S6144x4096_S48x128x32x128)
      (broadcastInDim S48x128x32x128 ![0, 1, 2, 3] bcast_S48x1x32x1_S48x128x32x128_0_1_2_3
        (broadcastInDim S48x1x32x1 ![0, 2] bcast_S48x32_S48x1x32x1_0_2 s)))
    shapeCasts_S48x128x32x128_S6144x4096

/-- The right operand's array as the kernel finds it is the dequantized weight, for the same reason. -/
theorem V_w (c : Dev nD) : (V m c main_v5 : S6144x4096.Idx → EReal)
    = dequant (m ((c : Thread nD τ).loc main_arg1)) (m ((c : Thread nD τ).loc main_arg2)) := by
  dsimp only [Gen.V, Gen.hostOps0]; after_results; rfl

/-- Entry (r, q) of the left operand's block at point `t` is entry (block row · 2048 + r, block column · 512 + q) of
    its array. -/
theorem iblk0_apply (c : Dev nD) (t : Fin cfg0.N) (r : Fin 2048) (q : Fin 512) (T : Fin 16384) (K : Fin 4096)
    (hT : T.val = win0_0.index t 0 * 2048 + r.val) (hK : K.val = win0_0.index t 1 * 512 + q.val) :
    (iblk m c 0 t : Vec Ideal S2048x512 .bf16) (ix2 r q) = (V m c main_v6 : S16384x4096.Idx → EReal) (ix2 T K) := by
  unfold iblk
  rw [View.read_apply]
  show V m c main_v6 _ = V m c main_v6 _
  congr 1
  funext a
  apply Fin.ext
  match a with
  | ⟨0, _⟩ => show win0_0.index t 0 * 2048 + 1 * r.val = T.val; omega
  | ⟨1, _⟩ => show win0_0.index t 1 * 512 + 1 * q.val = K.val; omega

/-- Entry (o, q) of the right operand's block at point `t` is entry (block row · 1024 + o, block column · 512 + q) of
    its array. -/
theorem iblk1_apply (c : Dev nD) (t : Fin cfg0.N) (o : Fin 1024) (q : Fin 512) (O : Fin 6144) (K : Fin 4096)
    (hO : O.val = win0_1.index t 0 * 1024 + o.val) (hK : K.val = win0_1.index t 1 * 512 + q.val) :
    (iblk m c 1 t : Vec Ideal S1024x512 .bf16) (ix2 o q) = (V m c main_v5 : S6144x4096.Idx → EReal) (ix2 O K) := by
  unfold iblk
  rw [View.read_apply]
  show V m c main_v5 _ = V m c main_v5 _
  congr 1
  funext a
  apply Fin.ext
  match a with
  | ⟨0, _⟩ => show win0_1.index t 0 * 1024 + 1 * o.val = O.val; omega
  | ⟨1, _⟩ => show win0_1.index t 1 * 512 + 1 * q.val = K.val; omega

end Cert.KernelIdeal.BlockReads

end
-- ==== Proof.LibBlockSum.lean ====
/-
  Sums cut into consecutive blocks.

  A sum of `n * b` terms of a commutative additive monoid, indexed by `Fin (n * b)`, is the sum over the
  `n` consecutive blocks of length `b` of each block's sum: term `p * b + q` is term `q` of block `p`.
  No subtraction and no cancellation is used, so the law holds on the extended reals with their
  infinities as it does on the reals.
-/
import Mathlib.Algebra.BigOperators.Fin
import Mathlib.Logic.Equiv.Fin.Basic

namespace BlockSum

variable {M : Type*} [AddCommMonoid M]

/-- Position `q` of block `p`, as a position among all `n * b` terms. -/
def pos {n b : ℕ} (p : Fin n) (q : Fin b) : Fin (n * b) :=
  ⟨p.val * b + q.val, by
    have hp : p.val + 1 ≤ n := p.isLt
    calc p.val * b + q.val < p.val * b + b := Nat.add_lt_add_left q.isLt _
      _ = (p.val + 1) * b := (Nat.succ_mul _ _).symm
      _ ≤ n * b := Nat.mul_le_mul_right b hp⟩

@[simp] theorem pos_val {n b : ℕ} (p : Fin n) (q : Fin b) : (pos p q).val = p.val * b + q.val := rfl

/-- Every position is position `k % b` of block `k / b`, and of no other. -/
def posEquiv (n b : ℕ) : Fin n × Fin b ≃ Fin (n * b) where
  toFun x := pos x.1 x.2
  invFun k :=
    have hb : 0 < b := Nat.pos_of_ne_zero fun h => by
      have := k.isLt; simp [h] at this
    (⟨k.val / b, Nat.div_lt_of_lt_mul (Nat.mul_comm n b ▸ k.isLt)⟩, ⟨k.val % b, Nat.mod_lt _ hb⟩)
  left_inv := by
    rintro ⟨p, q⟩
    have hb : 0 < b := Nat.pos_of_ne_zero fun h => by
      have := q.isLt; simp [h] at this
    refine Prod.ext (Fin.ext ?_) (Fin.ext ?_)
    · show (p.val * b + q.val) / b = p.val
      rw [Nat.mul_comm, Nat.mul_add_div hb, Nat.div_eq_of_lt q.isLt, Nat.add_zero]
    · show (p.val * b + q.val) % b = q.val
      rw [Nat.mul_comm, Nat.mul_add_mod, Nat.mod_eq_of_lt q.isLt]
  right_inv := by
    intro k
    refine Fin.ext ?_
    show k.val / b * b + k.val % b = k.val
    rw [Nat.mul_comm]; exact Nat.div_add_mod _ _

/-- The whole sum is the sum of the blocks' sums. -/
theorem sum_blocks (n b : ℕ) (f : Fin (n * b) → M) :
    ∑ k : Fin (n * b), f k = ∑ p : Fin n, ∑ q : Fin b, f (pos p q) := by
  rw [← Fintype.sum_prod_type (f := fun x : Fin n × Fin b => f (pos x.1 x.2))]
  exact (Equiv.sum_comp (posEquiv n b) f).symm

/-- The same with the blocks counted by a range of naturals: `g p` is block `p`'s sum wherever `p < n`. -/
theorem sum_blocks_range (n b : ℕ) (f : Fin (n * b) → M) (g : ℕ → M)
    (hg : ∀ p : Fin n, g p.val = ∑ q : Fin b, f (pos p q)) :
    ∑ k : Fin (n * b), f k = ∑ p ∈ Finset.range n, g p := by
  rw [sum_blocks, Finset.sum_range]
  exact Finset.sum_congr rfl fun p _ => (hg p).symm

end BlockSum
-- ==== Proof.RowDot.lean ====
/-
  The specification: a [16384, 4096] array `x` times the transpose of a [6144, 4096] array `w`.

  Entry (t, o) of the product is the sum over the 4096 features `k` of `x[t, k] * w[o, k]`, on the extended
  reals.  The same entry is the sum of eight partial sums, partial sum `p` taking the features
  `512 p, …, 512 p + 511`: a sum may be cut into consecutive blocks in any commutative additive monoid, so no
  finiteness of the entries is asked.
-/
import Idealize.ShloMosaic.PureOps.Ideal
import Idealize.ShloMosaic.Lib.ValueIdx
import proofs.«133586_j927712936107_1_alg».proof.Proof.LibBlockSum

noncomputable section

namespace RowDot

open Idealize.ShloMosaic

/-- The left factor's shape, [tokens, features]; the right factor's, [outputs, features]; the product's, [tokens, outputs]. -/
abbrev SX : Shape := ⟨2, ![16384, 4096]⟩
abbrev SW : Shape := ⟨2, ![6144, 4096]⟩
abbrev SO : Shape := ⟨2, ![16384, 6144]⟩

/-- Entry (t, o) of `x · wᵀ`: the sum over every feature. -/
def entry (x : SX.Idx → EReal) (w : SW.Idx → EReal) (t : Fin 16384) (o : Fin 6144) : EReal :=
  ∑ k : Fin 4096, x (ValueIdx.ix2 t k) * w (ValueIdx.ix2 o k)

/-- `x · wᵀ` as an array. -/
def prod (x : SX.Idx → EReal) (w : SW.Idx → EReal) : SO.Idx → EReal :=
  fun j => entry x w (j 0) (j 1)

theorem prod_apply (x : SX.Idx → EReal) (w : SW.Idx → EReal) (j : SO.Idx) :
    prod x w j = entry x w (j 0) (j 1) := rfl

/-- Feature `q` of the `p`-th block of 512 features. -/
abbrev feat (p : Fin 8) (q : Fin 512) : Fin 4096 := BlockSum.pos p q

theorem feat_val (p : Fin 8) (q : Fin 512) : (feat p q).val = p.val * 512 + q.val := rfl

/-- The part of entry (t, o) that the `p`-th block of 512 features contributes (zero for a `p` past the eight blocks). -/
def part (x : SX.Idx → EReal) (w : SW.Idx → EReal) (t : Fin 16384) (o : Fin 6144) (p : ℕ) : EReal :=
  if h : p < 8 then ∑ q : Fin 512, x (ValueIdx.ix2 t (feat ⟨p, h⟩ q)) * w (ValueIdx.ix2 o (feat ⟨p, h⟩ q)) else 0

/-- An entry is the sum of its eight parts. -/
theorem entry_eq_sum_parts (x : SX.Idx → EReal) (w : SW.Idx → EReal) (t : Fin 16384) (o : Fin 6144) :
    entry x w t o = ∑ p ∈ Finset.range 8, part x w t o p :=
  BlockSum.sum_blocks_range 8 512 (fun k : Fin (8 * 512) => x (ValueIdx.ix2 t k) * w (ValueIdx.ix2 o k)) (part x w t o)
    (fun p => by unfold part; rw [dif_pos p.isLt])

end RowDot

end
-- ==== Proof.KernelProduct.lean ====
/-
  The kernel's result array is `x · dequant(w, s)ᵀ`.

  The output block (row block `I`, column block `J`) is written back once, after the last of its eight inner
  steps.  What is written at entry (r, o) of the block is zero plus the eight addends of the run, and addend
  `p` is the part of entry (2048 I + r, 1024 J + o) of the product that features `512 p, …, 512 p + 511`
  contribute; the eight parts make up the entry.  The 48 output blocks tile the [16384, 6144] array, so the
  array ends holding the product everywhere.
-/
import proofs.«133586_j927712936107_1_alg».proof.Proof.Gen.KernelIdeal.Value
import proofs.«133586_j927712936107_1_alg».proof.Proof.Accumulated
import proofs.«133586_j927712936107_1_alg».proof.Proof.BlockReads
import proofs.«133586_j927712936107_1_alg».proof.Proof.RowDot
import Idealize.ShloMosaic.Lib.Pipeline.Value
import Idealize.ShloMosaic.Lib.Tactic
import Idealize.ShloMosaic.Lib.ValueIdx

noncomputable section

namespace Cert.KernelIdeal.Product

open Cert.KernelIdeal Cert.KernelIdeal.Gen Idealize.ShloMosaic Idealize.ShloMosaic.TcCoe Idealize.SL.Sem
open Idealize.ShloMosaic.Pipeline (Dat)

variable {F : FTy → Type} [FloatOps F]

open Idealize.ShloMosaic.ValueIdx Cert.KernelIdeal.Accumulated Cert.KernelIdeal.BlockReads

variable (m : (ℓ : Loc nD τ sig) → Buf (Elt Ideal) ℓ) (ρ : Dev nD → PrngReg)

/-- The product of the first argument with the transpose of the dequantized weight, as contents of the result array. -/
def result (c : Dev nD) : Buf (Elt Ideal) ((c : Thread nD τ).loc main_v7) :=
  RowDot.prod (m ((c : Thread nD τ).loc main_arg0)) (dequant (m ((c : Thread nD τ).loc main_arg1)) (m ((c : Thread nD τ).loc main_arg2)))

/-- The addend of inner step `s` of point `t`'s run, at entry `y` of the block, is part `s` of the product's entry at the
    block's position in the array. -/
theorem addend_eq_part (c : Dev nD) (t : Fin cfg0.N) (s : ℕ) (hs : s < 8) (y : S2048x1024.Idx) (T : Fin 16384) (O : Fin 6144)
    (hT : T.val = t.val / 48 * 2048 + (y 0).val) (hO : O.val = t.val / 8 % 6 * 1024 + (y 1).val) :
    addend m c (8 * (t.val / 8) + s) y
      = RowDot.part (m ((c : Thread nD τ).loc main_arg0)) (dequant (m ((c : Thread nD τ).loc main_arg1)) (m ((c : Thread nD τ).loc main_arg2))) T O s := by
  have hN : cfg0.N = 384 := N_0
  have ht : t.val < 384 := lt_of_lt_of_eq t.isLt hN
  have hb : 8 * (t.val / 8) + s < cfg0.N := by omega
  obtain ⟨e0, e1, e2, e3, -, -⟩ := idx_facts ⟨8 * (t.val / 8) + s, hb⟩
  rw [addend_of_lt m c _ hb y]
  unfold RowDot.part Cert.KernelIdeal.StepAtIndex.blockDot
  rw [dif_pos hs]
  refine Finset.sum_congr rfl fun q _ => ?_
  rw [iblk0_apply m c ⟨8 * (t.val / 8) + s, hb⟩ (y 0) q T (RowDot.feat ⟨s, hs⟩ q)
      (by rw [e0, hT]; show _ = (8 * (t.val / 8) + s) / 48 * 2048 + _; omega)
      (by rw [e1]; show s * 512 + q.val = (8 * (t.val / 8) + s) % 8 * 512 + q.val; omega),
    iblk1_apply m c ⟨8 * (t.val / 8) + s, hb⟩ (y 1) q O (RowDot.feat ⟨s, hs⟩ q)
      (by rw [e2, hO]; show _ = (8 * (t.val / 8) + s) / 8 % 6 * 1024 + _; omega)
      (by rw [e3]; show s * 512 + q.val = (8 * (t.val / 8) + s) % 8 * 512 + q.val; omega),
    V_x, V_w]

/-- What a writing-back point writes is its block of the product. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬t.val % 8 = 0 := by omega
  have hN : cfg0.N = 384 := N_0
  have ht : t.val < 384 := lt_of_lt_of_eq t.isLt hN
  obtain ⟨-, -, -, -, e4, e5⟩ := idx_facts t
  rw [Value.flushed2 m c t, out_eq_scratch m c t h0 h7]
  funext j
  have hj0 : (j 0).val < 2048 := (j 0).isLt
  have hj1 : (j 1).val < 1024 := (j 1).isLt
  rw [View.read_apply]
  show (outsAt0 m c t.val t.isLt).2 j = result m c (((cfg0.win 2).blk t).view.emb j)
  have hemb : ((cfg0.win 2).blk t).view.emb j
      = ix2 (⟨t.val / 48 * 2048 + (j 0).val, by omega⟩ : Fin 16384) (⟨t.val / 8 % 6 * 1024 + (j 1).val, by omega⟩ : Fin 6144) := by
    funext a; apply Fin.ext
    match a with
    | ⟨0, _⟩ => show win0_2.index t (0 : Fin 2) * 2048 + 1 * (j 0).val = t.val / 48 * 2048 + (j 0).val; rw [e4]; omega
    | ⟨1, _⟩ => show win0_2.index t (1 : Fin 2) * 1024 + 1 * (j 1).val = t.val / 8 % 6 * 1024 + (j 1).val; rw [e5]; omega
  rw [hemb, scratch_after m c t j, h7, zero_add]
  unfold result
  rw [RowDot.prod_apply, RowDot.entry_eq_sum_parts]
  refine Finset.sum_congr rfl fun s hs => ?_
  exact addend_eq_part m c t s (Finset.mem_range.mp hs) j _ _ rfl rfl

/-- An entry of the array lies in point `t`'s output block iff each coordinate lies in the block's range. -/
theorem mem_blk (t : Fin cfg0.N) (i : S16384x6144.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v7).slice (win0_2.rect t)).set ↔ _
  rw [View.set_slice_whole, Rect.mem_set_unit]
  exact Iff.rfl

/-- Every entry (T, O) of the array is written back: by the last inner step of row block `T / 2048`, column block `O / 1024`. -/
theorem cover (i : S16384x6144.Idx) :
    ∃ t : Fin cfg0.N, (cfg0.win 2).flush t = true ∧ i ∈ ((cfg0.win 2).blk t).view.set := by
  have hi0 : (i 0).val < 16384 := (i 0).isLt
  have hi1 : (i 1).val < 6144 := (i 1).isLt
  have hN : cfg0.N = 384 := N_0
  have htv : (i 0).val / 2048 * 48 + (i 1).val / 1024 * 8 + 7 < cfg0.N := by omega
  obtain ⟨-, -, -, -, e4, e5⟩ := idx_facts ⟨(i 0).val / 2048 * 48 + (i 1).val / 1024 * 8 + 7, htv⟩
  refine ⟨⟨(i 0).val / 2048 * 48 + (i 1).val / 1024 * 8 + 7, htv⟩, (flush0_2 _).mpr (by show ((i 0).val / 2048 * 48 + (i 1).val / 1024 * 8 + 7) % 8 = 7; omega), ?_⟩
  rw [mem_blk]
  intro a
  match a with
  | ⟨0, _⟩ =>
    show win0_2.index _ (0 : Fin 2) * 2048 ≤ (i 0).val ∧ (i 0).val < win0_2.index _ (0 : Fin 2) * 2048 + 2048
    rw [e4]; show ((i 0).val / 2048 * 48 + (i 1).val / 1024 * 8 + 7) / 48 * 2048 ≤ _ ∧ _ < ((i 0).val / 2048 * 48 + (i 1).val / 1024 * 8 + 7) / 48 * 2048 + 2048; omega
  | ⟨1, _⟩ =>
    show win0_2.index _ (1 : Fin 2) * 1024 ≤ (i 1).val ∧ (i 1).val < win0_2.index _ (1 : Fin 2) * 1024 + 1024
    rw [e5]; show ((i 0).val / 2048 * 48 + (i 1).val / 1024 * 8 + 7) / 8 % 6 * 1024 ≤ _ ∧ _ < ((i 0).val / 2048 * 48 + (i 1).val / 1024 * 8 + 7) / 8 % 6 * 1024 + 1024; omega

/-- The result array after the run is the product. -/
theorem final (c : Dev nD) : (dats m 0 c).arrAt 2 cfg0.N = result m c :=
  (dats m 0 c).arrAt_eq_of_cover 2 (result m c) (flushed_eq m c) cover

/-- The kernel's run: it terminates with the result array at the product and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Product

end
-- ==== Proof.ReferenceProduct.lean ====
/-
  The reference's result is the same product.

  The reference contracts the features of the first argument against the features of the dequantized weight:
  entry (t, o) of its result is `Σ_k x[t, k] * w'[o, k]` over all 4096 features, which is the specification's
  entry as it stands.
-/
import proofs.«133586_j927712936107_1_alg».proof.Proof.Gen.ReferenceIdeal.Read
import proofs.«133586_j927712936107_1_alg».proof.Proof.RowDot
import Idealize.ShloMosaic.Lib.ValueIdx

noncomputable section

namespace Cert.ReferenceIdeal.Product

open Cert.ReferenceIdeal Cert.ReferenceIdeal.Gen Cert.ReferenceIdeal.Read Idealize.ShloMosaic Idealize.ShloMosaic.TcCoe
open Idealize.ShloMosaic.ValueIdx

/-- The reference's last stage is the product of its first argument with the transpose of its dequantized weight. -/
theorem result_eq (x0 : FVec Ideal S16384x4096 .f32) (x1 : FVec Ideal S6144x4096 .f32) (x2 : FVec Ideal S48x32 .f32) :
    val_main_v5 (F := Ideal) x0 x1 x2 = RowDot.prod x0 (val_main_v4 (F := Ideal) x1 x2) := by
  funext i
  rw [val_main_v5_apply, RowDot.prod_apply]
  unfold RowDot.entry
  refine Finset.sum_congr rfl fun k _ => ?_
  have el : lidx_main_v5 i k = ix2 (i 0) k := funext fun a => Fin.ext (by
    match a with
    | ⟨0, _⟩ => rfl
    | ⟨1, _⟩ => rfl)
  have er : ridx_main_v5 i k = ix2 (i 1) k := funext fun a => Fin.ext (by
    match a with
    | ⟨0, _⟩ => rfl
    | ⟨1, _⟩ => rfl)
  rw [el, er]
  rfl

end Cert.ReferenceIdeal.Product

end
-- ==== Proof.lean ====
/-
  A blocked-scale linear layer: `x · dequant(w, s)ᵀ` for x : [16384, 4096], w : [6144, 4096], s : [48, 32].

  Both programs first dequantize the weight (regroup it into 128 × 128 blocks, multiply block (a, b) by s[a, b],
  flatten back).  The reference then contracts the 4096 features in one product.  The kernel works on an
  8 × 6 × 8 grid: for each [2048, 1024] output block it runs eight inner steps, each adding to an accumulator
  that starts at zero the product of a [2048, 512] block of x with the transpose of a [1024, 512] block of the
  dequantized weight, and writes the accumulator out after the eighth.  Its conversions of both operands to a
  narrower float format are the identity on the extended reals.

  So entry (t, o) of the kernel's result is zero plus eight partial sums of 512 features, and of the
  reference's the one sum over 4096 features.  The two agree because a finite sum of extended reals may be cut
  into consecutive blocks — addition there is commutative and associative, infinities included — so the
  finiteness of the inputs is not used.  The idealization rewrote nothing, so the word-level kernel's relation
  to it is trivial; the three programs' termination and untouched arguments are the generated frame runs.
-/
import proofs.«133586_j927712936107_1_alg».proof.Defs
import proofs.«133586_j927712936107_1_alg».proof.Proof.Gen.Kernel
import proofs.«133586_j927712936107_1_alg».proof.Proof.Gen.Kernel.Skeleton
import proofs.«133586_j927712936107_1_alg».proof.Proof.Gen.Kernel.Launch
import proofs.«133586_j927712936107_1_alg».proof.Proof.Gen.Kernel.Points
import proofs.«133586_j927712936107_1_alg».proof.Proof.Gen.Kernel.Frame
import proofs.«133586_j927712936107_1_alg».proof.Proof.Gen.KernelIdeal
import proofs.«133586_j927712936107_1_alg».proof.Proof.Gen.KernelIdeal.Skeleton
import proofs.«133586_j927712936107_1_alg».proof.Proof.Gen.KernelIdeal.Launch
import proofs.«133586_j927712936107_1_alg».proof.Proof.Gen.KernelIdeal.Points
import proofs.«133586_j927712936107_1_alg».proof.Proof.Gen.KernelIdeal.Frame
import proofs.«133586_j927712936107_1_alg».proof.Proof.Gen.KernelIdeal.Value
import proofs.«133586_j927712936107_1_alg».proof.Proof.Gen.ReferenceIdeal
import proofs.«133586_j927712936107_1_alg».proof.Proof.Gen.ReferenceIdeal.Run
import proofs.«133586_j927712936107_1_alg».proof.Proof.Gen.ReferenceIdeal.Read
import proofs.«133586_j927712936107_1_alg».proof.Proof.Gen.Pre_finite_inputs
import proofs.«133586_j927712936107_1_alg».proof.Proof.KernelProduct
import proofs.«133586_j927712936107_1_alg».proof.Proof.ReferenceProduct
import Idealize.ShloMosaic.Adequacy
import Idealize.ShloMosaic.Init

noncomputable section

namespace Cert.Proof

open Idealize.ShloMosaic Idealize.SL.Sem

/-- The word-level kernel terminates and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- Both programs dequantize the weight by the same four operations. -/
theorem dequant_eq (w : FVec Ideal Cert.ReferenceIdeal.S6144x4096 .f32) (s : FVec Ideal Cert.ReferenceIdeal.S48x32 .f32) :
    Cert.ReferenceIdeal.Read.val_main_v4 (F := Ideal) w s = Cert.KernelIdeal.BlockReads.dequant w s := rfl

/-- From arguments that agree, the kernel ends with its result array at `x · dequant(w, s)ᵀ` and the reference with its
    at the same product. -/
theorem algebraic : Cert.algebraic_KernelIdeal_ReferenceIdeal := by
  intro m ρ m' ρ' _ hagree
  refine ⟨fun c => Cert.KernelIdeal.Product.result m c, Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v5_eq,
    Cert.ReferenceIdeal.Product.result_eq, dequant_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
